-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S16x64 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg7
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg8 main_v33

def fn {F : FTy → Type} [FloatOps F] (main_arg0 : IVec S2x1600000 32) (main_arg1 : FVec F S100000x64 .f32) (main_arg2 : FVec F S64x64 .f32) (main_arg3 : FVec F S64 .f32) (main_arg4 : FVec F S64x64 .f32) (main_arg5 : FVec F S64x64 .f32) (main_arg6 : FVec F S64 .f32) (main_arg7 : FVec F S16x64 .f32) (main_arg8 : FVec F S16 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x16 : Shape := ⟨2, ![64, 16]⟩
abbrev S100000x16 : Shape := ⟨2, ![100000, 16]⟩
abbrev S10000x64 : Shape := ⟨2, ![10000, 64]⟩
abbrev S10000x16 : Shape := ⟨2, ![10000, 16]⟩
abbrev S1x64 : Shape := ⟨2, ![1, 64]⟩
abbrev S1x16 : Shape := ⟨2, ![1, 16]⟩

abbrev nBuf : Space → Nat
  | .hbm => 45
  | .vmem => 11
  | .smem => 0
  | _ => 0

abbrev bufTy : (tb : Table) → Fin (tcTables nBuf tb) → BufTy
  | .hbm, ⟨0, _⟩ => ⟨S2x1600000, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S16x64, .f32⟩
  | .hbm, ⟨8, _⟩ => ⟨S16, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S64x64, .f32⟩
  | .hbm, ⟨27, _⟩ => ⟨S64x64, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64, .f32⟩
  | .hbm, ⟨41, _⟩ => ⟨S64x64, .f32⟩
  | .hbm, ⟨42, _⟩ => ⟨S64x64, .f32⟩
  | .hbm, ⟨43, _⟩ => ⟨S64x16, .f32⟩
  | .hbm, ⟨44, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S64x16, .f32⟩
  | .local _ .vmem, ⟨8, _⟩ => ⟨S16, .f32⟩
  | .local _ .vmem, ⟨9, _⟩ => ⟨S10000x16, .f32⟩
  | .local _ .vmem, ⟨10, _⟩ => ⟨S10000x16, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S_S64x64 : S_.BroadcastsInDim S64x64 (![] : Fin 0 → Fin S64x64.rank)
  transposes_S16x64_S64x16_1_0 : S16x64.Transposes [1, 0] S64x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x16.size a ≤ S100000x16.size a
  hwx0_7 : ∀ i : grid0.Coords, EltTy.bits .f32 = 32 ∨ (Rect.block (s := S100000x16) S10000x16.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S10000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S64x16 : Shape := ⟨2, ![64, 16]⟩
abbrev S100000x16 : Shape := ⟨2, ![100000, 16]⟩
abbrev S1x16 : Shape := ⟨2, ![1, 16]⟩

abbrev nBuf : Space → Nat
  | .hbm => 71
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S16x64, .f32⟩
  | .hbm, ⟨8, _⟩ => ⟨S16, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S64x64, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S64x64, .f32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i1⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S64x16, .f32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The mathematics of the dense node update, with no program in sight.

  For one node (one row) the layer reads the row `a` of neighbour sums and the row `x` of the node's own features and
  returns, for each class `c`,

      σ( ∑ₖ (xₖ + ε · tanh hₖ) · Wl[k, c] + bl[c] ),     hₖ = ∑ₗ aₗ · Wr[l, k] + ∑ₗ xₗ · Wc[l, k] + b[k],

  with σ the logistic function and ε the step-size literal.  `rowOut` is that function over the extended reals, the
  hidden pre-activation `hidden` factored out.  The two programs differ only in how `h` is grouped: one contracts `x`
  once against the SUM `Wroot + Wa` and adds the SUM of the two biases, the other contracts `x` against each matrix
  and adds the biases one at a time.  `preAct_regroup` is the law between the groupings: distributivity of a product
  over a sum, which in the extended reals holds when the multiplier and ONE summand are real (the other summand may be
  infinite: both sides are then that infinity times the multiplier's sign), followed by reordering a sum, which always
  holds.
-/
import Idealize.ShloMosaic.PureOps.Ideal
import Idealize.ShloMosaic.Lib.ValueIdx

noncomputable section

namespace Cert.DenseSpec

open Idealize.ShloMosaic Idealize.ShloMosaic.ValueIdx
open scoped BigOperators

/-- A real multiplier distributes over a sum one of whose terms is real. -/
theorem coe_mul_coe_add (x a : ℝ) (b : EReal) :
    (x : EReal) * ((a : EReal) + b) = (x : EReal) * (a : EReal) + (x : EReal) * b := by
  induction b using EReal.rec with
  | bot =>
    rw [EReal.add_bot]
    rcases lt_trichotomy x 0 with h | h | h
    · rw [EReal.coe_mul_bot_of_neg h, ← EReal.coe_mul, EReal.coe_add_top]
    · subst h; simp
    · rw [EReal.coe_mul_bot_of_pos h, EReal.add_bot]
  | coe b =>
    rw [← EReal.coe_add, ← EReal.coe_mul, ← EReal.coe_mul, ← EReal.coe_mul, ← EReal.coe_add, mul_add]
  | top =>
    rw [EReal.coe_add_top]
    rcases lt_trichotomy x 0 with h | h | h
    · rw [EReal.coe_mul_top_of_neg h, EReal.add_bot]
    · subst h; simp
    · rw [EReal.coe_mul_top_of_pos h, ← EReal.coe_mul, EReal.coe_add_top]

/-- The same for entries known to be real only through a witness. -/
theorem mul_add_of_real {x a : EReal} (hx : ∃ r : ℝ, x = r) (ha : ∃ r : ℝ, a = r) (b : EReal) :
    x * (a + b) = x * a + x * b := by
  obtain ⟨x, rfl⟩ := hx
  obtain ⟨a, rfl⟩ := ha
  exact coe_mul_coe_add x a b

/-- The hidden pre-activation at feature `k`: the neighbour sums through `Wr`, the node's features through `Wc`, a bias. -/
def preAct (a x : Fin 64 → EReal) (Wr Wc : (⟨2, ![64, 64]⟩ : Shape).Idx → EReal) (b : (⟨1, ![64]⟩ : Shape).Idx → EReal)
    (k : Fin 64) : EReal :=
  ((∑ l : Fin 64, a l * Wr (ix2 l k)) + (∑ l : Fin 64, x l * Wc (ix2 l k))) + b (ix1 k)

/-- One node's class scores from its row of neighbour sums and its own row. `ε` is the step-size literal as the
    programs carry it: its binary word, never evaluated. -/
def rowOut (a x : Fin 64 → EReal) (Wr Wc : (⟨2, ![64, 64]⟩ : Shape).Idx → EReal) (b : (⟨1, ![64]⟩ : Shape).Idx → EReal)
    (Wl : (⟨2, ![64, 16]⟩ : Shape).Idx → EReal) (bl : (⟨1, ![16]⟩ : Shape).Idx → EReal) (c : Fin 16) : EReal :=
  Ideal.logistic ((∑ k : Fin 64, (x k + Ideal.ofBits .f32 0x3DCCCCCD#32 * Ideal.tanh (preAct a x Wr Wc b k)) * Wl (ix2 k c))
    + bl (ix1 c))

/-- The whole layer: row `i 0` of the output depends on row `i 0` of the two node arrays only. -/
def layer (A X : (⟨2, ![100000, 64]⟩ : Shape).Idx → EReal) (Wr Wc : (⟨2, ![64, 64]⟩ : Shape).Idx → EReal)
    (b : (⟨1, ![64]⟩ : Shape).Idx → EReal) (Wl : (⟨2, ![64, 16]⟩ : Shape).Idx → EReal) (bl : (⟨1, ![16]⟩ : Shape).Idx → EReal) :
    (⟨2, ![100000, 16]⟩ : Shape).Idx → EReal :=
  fun i => rowOut (fun l => A (ix2 (i 0) l)) (fun l => X (ix2 (i 0) l)) Wr Wc b Wl bl (i 1)

/-- THE LAW between the two groupings of the hidden pre-activation, for a real row `x` and a real column `wroot`:
    contracting `x` against `wroot + wa` and adding `brel + ba` is contracting it against each and adding the biases
    one at a time, in the other program's order. -/
theorem preAct_regroup (a x wrel wroot wa : Fin 64 → EReal) (brel ba : EReal)
    (hx : ∀ l, ∃ r : ℝ, x l = r) (hw : ∀ l, ∃ r : ℝ, wroot l = r) :
    ((∑ l, a l * wrel l) + (∑ l, x l * (wroot l + wa l))) + (brel + ba)
      = ((∑ l, x l * wa l) + (((∑ l, a l * wrel l) + brel) + (∑ l, x l * wroot l))) + ba := by
  have h : (∑ l, x l * (wroot l + wa l)) = (∑ l, x l * wroot l) + (∑ l, x l * wa l) := by
    rw [← Finset.sum_add_distrib]
    exact Finset.sum_congr rfl fun l _ => mul_add_of_real (hx l) (hw l) (wa l)
  rw [h]
  abel

end Cert.DenseSpec

end
-- ==== Proof.Finite.lean ====
/-
  What the precondition gives: real entries.

  The precondition is the conjunction, over the eight float arguments, of "every entry's absolute value is below +∞".
  An extended real whose absolute value is below +∞ is a real number, so each conjunct makes its array real entry by
  entry.  The equivalence of the two programs uses this of two arrays only: the node features and the root weights
  (the multiplier and one summand of the one product that is distributed over a sum).
-/
import proofs.«152117_j15444702396724_2_alg».proof.Pre_finite_inputs
import proofs.«152117_j15444702396724_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Reals

open Cert.Pre_finite_inputs Cert.Pre_finite_inputs.Gen Idealize.ShloMosaic Idealize.ShloMosaic.ValueIdx

instance : Subsingleton S_.Idx := ⟨fun a b => funext fun d => d.elim0⟩

/-- The word with all exponent bits set and no fraction bit is +∞. -/
theorem ofBits_inf : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = r := by
  rw [ofBits_inf] at h
  induction x using EReal.rec with
  | bot => exfalso; simp [Ideal.cmp] at h
  | coe r => exact ⟨r, rfl⟩
  | top => exfalso; simp [Ideal.cmp] at h

/-- One conjunct of the precondition: if "all entries of |x| are below +∞" reduces to 1, every entry of `x` is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r := by
  have hi := Host.reduce_andi_all _ _ hr hu ix0 e i
  have hbc : broadcastInDim s ![] hb (constant (F := Ideal) S_ .f32 0x7F800000#32) i = Ideal.ofBits .f32 0x7F800000#32 :=
    broadcastInDim_apply _ hb _ i (fun a => a.elim0) (fun a => a.elim0)
  refine real_of_abs_lt (x i) ?_
  rw [← hbc]
  exact hi

/-- From the whole precondition: the node features (argument 1) and the root weights (argument 4) are real. -/
theorem real_x_wroot (a0 : IVec S2x1600000 32) (a1 : FVec Ideal S100000x64 .f32) (a2 : FVec Ideal S64x64 .f32)
    (a3 : FVec Ideal S64 .f32) (a4 a5 : FVec Ideal S64x64 .f32) (a6 : FVec Ideal S64 .f32) (a7 : FVec Ideal S16x64 .f32)
    (a8 : FVec Ideal S16 .f32) (h : fn (F := Ideal) a0 a1 a2 a3 a4 a5 a6 a7 a8 = fun _ => 1#1) :
    (∀ i, ∃ r : ℝ, a1 i = r) ∧ (∀ i, ∃ r : ℝ, a4 i = r) := by
  have h0 : fn (F := Ideal) a0 a1 a2 a3 a4 a5 a6 a7 a8 ix0 = 1#1 := congrFun h ix0
  unfold fn at h0
  dsimp only at h0
  unfold fn_part1 at h0
  dsimp only at h0
  unfold fn_part2 at h0
  dsimp only at h0
  simp only [andi] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨h3, -⟩ := IntOp.andi_eq_one.1 h8
  exact ⟨fun i => real_of_all a1 _ _ _ h3 i, fun i => real_of_all a4 _ _ _ h17 i⟩

end Cert.Pre_finite_inputs.Reals

end
-- ==== Proof.KernelTile.lean ====
/-
  The kernel body's arithmetic read at one entry of its output tile.

  At a grid point the body holds a tile of 10000 rows of neighbour sums `A` and of node features `X` and the whole
  weights and biases; its one store writes, at row `p` and class `c` of the tile, the layer's value for that node:
  `rowOut` of row `p` of `A` and row `p` of `X`.  The three matrix products run into zero accumulators, so each is
  the plain sum over the shared axis; a bias enters as a one-row array repeated down the rows; tanh and the logistic
  function act entry by entry.
-/
import proofs.«152117_j15444702396724_2_alg».proof.Proof.Gen.KernelIdeal.Skeleton
import proofs.«152117_j15444702396724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.DenseSpec
open scoped BigOperators

/-! ## The matrix products, entry by entry -/

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] × [64,64] product into a zero accumulator, at row `p` and column `k`: the sum over the shared axis of
    the row's entries times the column's. -/
theorem matmul64_apply (L : FVec Ideal S10000x64 .f32) (R : FVec Ideal S64x64 .f32) (p : Fin 10000) (k : Fin 64) :
    matmul dot_S10000x64_S64x64_S10000x64_1_0_0_1_n_n none L R (constant S10000x64 .f32 0x00000000#32) (ix2 p k)
      = ∑ l : Fin 64, L (ix2 p l) * R (ix2 l k) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun l _ => ?_
  have hk := ValueIdx.contrEquiv1_symm_val dot_S10000x64_S64x64_S10000x64_1_0_0_1_n_n 64 rfl rfl l
  have el : dot_S10000x64_S64x64_S10000x64_1_0_0_1_n_n.lhsIdx (ix2 p k) ((ValueIdx.contrEquiv1 dot_S10000x64_S64x64_S10000x64_1_0_0_1_n_n 64 rfl rfl).symm l) = ix2 p l := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p k) ((ValueIdx.contrEquiv1 dot_S10000x64_S64x64_S10000x64_1_0_0_1_n_n 64 rfl rfl).symm l) = ix2 l k := funext fun a => Fin.ext (by
    match a with
    | ⟨0, _⟩ => exact (rhs64_0 _ _).trans hk
    | ⟨1, _⟩ => exact rhs64_1 _ _)
  rw [el, er]

theorem lhs16_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs16_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
theorem rhs16_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
theorem rhs16_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- A [10000,64] × [64,16] product into a zero accumulator, at row `p` and column `k`: the sum over the shared axis of
    the row's entries times the column's. -/
theorem matmul16_apply (L : FVec Ideal S10000x64 .f32) (R : FVec Ideal S64x16 .f32) (p : Fin 10000) (k : Fin 16) :
    matmul dot_S10000x64_S64x16_S10000x16_1_0_0_1_n_n none L R (constant S10000x16 .f32 0x00000000#32) (ix2 p k)
      = ∑ l : Fin 64, L (ix2 p l) * R (ix2 l k) := by
  simp only [matmul]
  rw [Ideal.matmul_constant_zero_apply, ← Equiv.sum_comp (ValueIdx.contrEquiv1 dot_S10000x64_S64x16_S10000x16_1_0_0_1_n_n 64 rfl rfl).symm]
  refine Finset.sum_congr rfl fun l _ => ?_
  have hk := ValueIdx.contrEquiv1_symm_val dot_S10000x64_S64x16_S10000x16_1_0_0_1_n_n 64 rfl rfl l
  have el : dot_S10000x64_S64x16_S10000x16_1_0_0_1_n_n.lhsIdx (ix2 p k) ((ValueIdx.contrEquiv1 dot_S10000x64_S64x16_S10000x16_1_0_0_1_n_n 64 rfl rfl).symm l) = ix2 p l := funext fun a => Fin.ext (by
    match a with
    | ⟨0, _⟩ => exact lhs16_0 _ _
    | ⟨1, _⟩ => exact (lhs16_1 _ _).trans hk)
  have er : dot_S10000x64_S64x16_S10000x16_1_0_0_1_n_n.rhsIdx (ix2 p k) ((ValueIdx.contrEquiv1 dot_S10000x64_S64x16_S10000x16_1_0_0_1_n_n 64 rfl rfl).symm l) = ix2 l k := funext fun a => Fin.ext (by
    match a with
    | ⟨0, _⟩ => exact (rhs16_0 _ _).trans hk
    | ⟨1, _⟩ => exact rhs16_1 _ _)
  rw [el, er]

/-! ## The stored value, entry by entry -/

/-- Row `p`, class `c` of the tile the body stores is the layer's value for the node in row `p`. -/
theorem pay_apply (A X : Vec Ideal S10000x64 .f32) (Wr Wc : Vec Ideal S64x64 .f32) (B : Vec Ideal S64 .f32)
    (Wl : Vec Ideal S64x16 .f32) (Bl : Vec Ideal S16 .f32) (p : Fin 10000) (c : Fin 16) :
    k0_pay1 (F := Ideal) A X Wr Wc B Wl Bl (ix2 p c)
      = rowOut (fun l => A (ix2 p l)) (fun l => X (ix2 p l)) Wr Wc B Wl Bl c := by
  unfold k0_pay1 rowOut preAct
  simp only [shapeCast_self, logistic, tanh, addf_apply, mulf_apply, broadcast_apply, matmul64_apply, matmul16_apply,
    broadcastTo_1b_ab_apply, shapeCast_a_1a_apply]
  rfl

/-- The same entry as an entry of the whole layer: when row `j 0` of the two tiles is row `i 0` of the two node arrays,
    the weights and biases the body holds are the arrays', and `j`, `i` name the same class, the tile's entry at `j` is
    the layer's at `i`. -/
theorem tile_eq (A X : Vec Ideal S10000x64 .f32) (Wr Wc : Vec Ideal S64x64 .f32) (B : Vec Ideal S64 .f32)
    (Wl : Vec Ideal S64x16 .f32) (Bl : Vec Ideal S16 .f32)
    (AA XX : (⟨2, ![100000, 64]⟩ : Shape).Idx → EReal) (WR WC : (⟨2, ![64, 64]⟩ : Shape).Idx → EReal)
    (BB : (⟨1, ![64]⟩ : Shape).Idx → EReal) (WL : (⟨2, ![64, 16]⟩ : Shape).Idx → EReal) (BL : (⟨1, ![16]⟩ : Shape).Idx → EReal)
    (j : S10000x16.Idx) (i : (⟨2, ![100000, 16]⟩ : Shape).Idx)
    (hA : ∀ l : Fin 64, A (ix2 (j 0) l) = AA (ix2 (i 0) l)) (hX : ∀ l : Fin 64, X (ix2 (j 0) l) = XX (ix2 (i 0) l))
    (hWr : Wr = WR) (hWc : Wc = WC) (hB : B = BB) (hWl : Wl = WL) (hBl : Bl = BL) (hc : j 1 = i 1) :
    k0_pay1 (F := Ideal) A X Wr Wc B Wl Bl j = layer AA XX WR WC BB WL BL i := by
  refine (congrArg (k0_pay1 (F := Ideal) A X Wr Wc B Wl Bl) (eq_ix2 j)).trans
    ((pay_apply A X Wr Wc B Wl Bl (j 0) (j 1)).trans ?_)
  unfold layer
  subst hWr hWc hB hWl hBl
  rw [hc, funext hA, funext hX]

end Cert.KernelIdeal.Tile

end
-- ==== Proof.KernelArray.lean ====
/-
  From tiles to the array.

  The grid has ten points; point `t` stages rows `10000·t … 10000·t + 9999` of the two node arrays (neighbour sums,
  features), the whole of each weight and bias array, and writes back rows `10000·t …` of the result.  So what point `t`
  writes back is the layer of the arrays as the call finds them, restricted to its rows; the ten row blocks tile the
  result (row `r` lies in the block of point `r / 10000`); hence the result array ends holding the layer everywhere.
  The arrays the call finds are kept as opaque functions throughout: nothing here looks inside them.
-/
import proofs.«152117_j15444702396724_2_alg».proof.Proof.Gen.KernelIdeal.Value
import proofs.«152117_j15444702396724_2_alg».proof.Proof.KernelTile
import Idealize.ShloMosaic.Lib.Pipeline.Value

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Cert.DenseSpec
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The block index maps, decided over the ten points: the node arrays and the result move by whole row blocks with the
    point, every other operand stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## A block of ANY array, read at a local index -/

/-- Point `t`'s tile of a [100000,64] array staged by window 0: local row `y 0` is row `10000·t + y 0`. -/
theorem tile0_apply (f : S100000x64.Idx → EReal) (t : Fin cfg0.N) (y : S10000x64.Idx) (k : S100000x64.Idx)
    (hk0 : (k 0).val = t.val * 10000 + (y 0).val) (hk1 : (k 1).val = (y 1).val) :
    ((cfg0.win 0).blk t).view.read (Elt Ideal) f y = f k := by
  obtain ⟨e0, e1, -⟩ := idx_facts t
  rw [View.read_apply]
  show f _ = f k
  refine congrArg f (funext fun a => Fin.ext ?_)
  match a with
  | ⟨0, _⟩ => show win0_0.index t (0 : Fin 2) * 10000 + 1 * (y 0).val = (k 0).val; rw [e0, hk0]; omega
  | ⟨1, _⟩ => show win0_0.index t (1 : Fin 2) * 64 + 1 * (y 1).val = (k 1).val; rw [e1, hk1]; omega

/-- The same for the array window 1 stages. -/
theorem tile1_apply (f : S100000x64.Idx → EReal) (t : Fin cfg0.N) (y : S10000x64.Idx) (k : S100000x64.Idx)
    (hk0 : (k 0).val = t.val * 10000 + (y 0).val) (hk1 : (k 1).val = (y 1).val) :
    ((cfg0.win 1).blk t).view.read (Elt Ideal) f y = f k := by
  obtain ⟨-, -, e0, e1, -⟩ := idx_facts t
  rw [View.read_apply]
  show f _ = f k
  refine congrArg f (funext fun a => Fin.ext ?_)
  match a with
  | ⟨0, _⟩ => show win0_1.index t (0 : Fin 2) * 10000 + 1 * (y 0).val = (k 0).val; rw [e0, hk0]; omega
  | ⟨1, _⟩ => show win0_1.index t (1 : Fin 2) * 64 + 1 * (y 1).val = (k 1).val; rw [e1, hk1]; omega

/-- Window 2's one block of a [64,64] array is the array. -/
theorem whole2 (f : S64x64.Idx → EReal) (t : Fin cfg0.N) : ((cfg0.win 2).blk t).view.read (Elt Ideal) f = f := by
  obtain ⟨-, -, -, -, e0, e1, -⟩ := idx_facts t
  funext y
  rw [View.read_apply]
  show f _ = f y
  refine congrArg f (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- Window 3's one block of a [64,64] array is the array. -/
theorem whole3 (f : S64x64.Idx → EReal) (t : Fin cfg0.N) : ((cfg0.win 3).blk t).view.read (Elt Ideal) f = f := by
  obtain ⟨-, -, -, -, -, -, e0, e1, -⟩ := idx_facts t
  funext y
  rw [View.read_apply]
  show f _ = f y
  refine congrArg f (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Window 4's one block of a [64] array is the array. -/
theorem whole4 (f : S64.Idx → EReal) (t : Fin cfg0.N) : ((cfg0.win 4).blk t).view.read (Elt Ideal) f = f := by
  obtain ⟨-, -, -, -, -, -, -, -, e0, -⟩ := idx_facts t
  funext y
  rw [View.read_apply]
  show f _ = f y
  refine congrArg f (funext fun a => Fin.ext ?_)
  match a with
  | ⟨0, _⟩ => show win0_4.index t (0 : Fin 1) * 64 + 1 * (y 0).val = (y 0).val; rw [e0]; omega

/-- Window 5's one block of a [64,16] array is the array. -/
theorem whole5 (f : S64x16.Idx → EReal) (t : Fin cfg0.N) : ((cfg0.win 5).blk t).view.read (Elt Ideal) f = f := by
  obtain ⟨-, -, -, -, -, -, -, -, -, e0, e1, -⟩ := idx_facts t
  funext y
  rw [View.read_apply]
  show f _ = f y
  refine congrArg f (funext fun a => Fin.ext ?_)
  match a with
  | ⟨0, _⟩ => show win0_5.index t (0 : Fin 2) * 64 + 1 * (y 0).val = (y 0).val; rw [e0]; omega
  | ⟨1, _⟩ => show win0_5.index t (1 : Fin 2) * 16 + 1 * (y 1).val = (y 1).val; rw [e1]; omega

/-- Window 6's one block of a [16] array is the array. -/
theorem whole6 (f : S16.Idx → EReal) (t : Fin cfg0.N) : ((cfg0.win 6).blk t).view.read (Elt Ideal) f = f := by
  obtain ⟨-, -, -, -, -, -, -, -, -, -, -, e0, -⟩ := idx_facts t
  funext y
  rw [View.read_apply]
  show f _ = f y
  refine congrArg f (funext fun a => Fin.ext ?_)
  match a with
  | ⟨0, _⟩ => show win0_6.index t (0 : Fin 1) * 16 + 1 * (y 0).val = (y 0).val; rw [e0]; omega

/-- Point `t`'s block of ANY [100000,16] array, through the result's window: local `(p, c)` is `(10000·t + p, c)`. -/
theorem out_read (G : S100000x16.Idx → EReal) (t : Fin cfg0.N) (j : S10000x16.Idx) :
    ((cfg0.win 7).blk t).view.read (Elt Ideal) G j = G (((cfg0.win 7).blk t).view.emb j) := by
  rw [View.read_apply]
  rfl

/-- The coordinates of that array index. -/
theorem out_emb (t : Fin cfg0.N) (j : S10000x16.Idx) :
    ((((cfg0.win 7).blk t).view.emb j) 0).val = t.val * 10000 + (j 0).val ∧ (((cfg0.win 7).blk t).view.emb j) 1 = j 1 := by
  obtain ⟨-, -, -, -, -, -, -, -, -, -, -, -, e70, e71⟩ := idx_facts t
  refine ⟨?_, Fin.ext ?_⟩
  · show win0_7.index t (0 : Fin 2) * 10000 + 1 * (j 0).val = t.val * 10000 + (j 0).val
    rw [e70]; omega
  · show win0_7.index t (1 : Fin 2) * 16 + 1 * (j 1).val = (j 1).val
    rw [e71]; omega

/-- The result's window is not clipped: what is written back is the whole staged tile. -/
theorem out_cut (t : Fin cfg0.N) (P : Vec Ideal S10000x16 .f32) : (cfg0.win 7).cut (grid0.coords t) P = P := rfl

/-! ## What a point writes back, the cover, the array -/

variable (m : (ℓ : Loc nD τ sig) → Buf (Elt Ideal) ℓ) (ρ : Dev nD → PrngReg)

/-- The layer of the seven arrays the call reads, as it finds them. -/
def layerV (c : Dev nD) : S100000x16.Idx → EReal :=
  layer (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6))

/-- WHAT POINT `t` WRITES BACK is its row block of the layer. -/
theorem flushed_eq (c : Dev nD) (t : Fin cfg0.N) :
    (dats m 0 c).flushed 7 t = ((cfg0.win 7).blk t).view.read (Elt Ideal) (layerV m c) := by
  rw [flushed7]
  unfold out0_7
  rw [View.canon_unit_zero hz2]
  simp only [View.ld_unit_zero (S := S10000x64) hz2, View.ld_unit_zero (S := S64x64) hz2, View.ld_unit_zero (S := S64x16) hz2,
    View.ld_unit_zero (S := S64) hz1, View.ld_unit_zero (S := S16) hz1]
  rw [out_cut]
  funext j
  rw [out_read]
  obtain ⟨h0, h1⟩ := out_emb t j
  unfold layerV
  refine Tile.tile_eq (iblk m c 0 t) (iblk m c 1 t) (iblk m c 2 t) (iblk m c 3 t) (iblk m c 4 t) (iblk m c 5 t) (iblk m c 6 t)
    (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) j (((cfg0.win 7).blk t).view.emb j)
    (fun l => ?_) (fun l => ?_) ?_ ?_ ?_ ?_ ?_ h1.symm
  · unfold iblk
    exact tile0_apply (V m c (Pipeline.arrRef spec0 0)) t (ix2 (j 0) l) (ix2 ((((cfg0.win 7).blk t).view.emb j) 0) l) h0 rfl
  · unfold iblk
    exact tile1_apply (V m c (Pipeline.arrRef spec0 1)) t (ix2 (j 0) l) (ix2 ((((cfg0.win 7).blk t).view.emb j) 0) l) h0 rfl
  · unfold iblk; exact whole2 (V m c (Pipeline.arrRef spec0 2)) t
  · unfold iblk; exact whole3 (V m c (Pipeline.arrRef spec0 3)) t
  · unfold iblk; exact whole4 (V m c (Pipeline.arrRef spec0 4)) t
  · unfold iblk; exact whole5 (V m c (Pipeline.arrRef spec0 5)) t
  · unfold iblk; exact whole6 (V m c (Pipeline.arrRef spec0 6)) t

/-- An index of the result is in point `t`'s block iff each coordinate is in the block's range on its axis. -/
theorem mem_blk (t : Fin cfg0.N) (i : S100000x16.Idx) :
    i ∈ ((cfg0.win 7).blk t).view.set ↔ ∀ a : Fin 2, win0_7.index t a * S10000x16.size a ≤ (i a).val ∧ (i a).val < win0_7.index t a * S10000x16.size a + S10000x16.size a := by
  show i ∈ ((View.whole main_v30).slice (win0_7.rect t)).set ↔ _
  rw [View.set_slice_whole, Rect.mem_set_unit]
  exact Iff.rfl

/-- THE COVER: row `r` of the result lies in the block of point `r / 10000`. -/
theorem cover (i : S100000x16.Idx) :
    ∃ t : Fin cfg0.N, (cfg0.win 7).flush t = true ∧ i ∈ ((cfg0.win 7).blk t).view.set := by
  have hi0 : (i 0).val < 100000 := (i 0).isLt
  have hi1 : (i 1).val < 16 := (i 1).isLt
  have hN : cfg0.N = 10 := N_0
  have hlt : (i 0).val / 10000 < cfg0.N := by rw [hN]; omega
  obtain ⟨-, -, -, -, -, -, -, -, -, -, -, -, e70, e71⟩ := idx_facts ⟨(i 0).val / 10000, hlt⟩
  refine ⟨⟨(i 0).val / 10000, hlt⟩, flush0_7 _, ?_⟩
  rw [mem_blk]
  intro a
  match a with
  | ⟨0, _⟩ =>
    show win0_7.index ⟨(i 0).val / 10000, hlt⟩ (0 : Fin 2) * 10000 ≤ (i 0).val ∧ (i 0).val < win0_7.index ⟨(i 0).val / 10000, hlt⟩ (0 : Fin 2) * 10000 + 10000
    rw [e70]
    show (i 0).val / 10000 * 10000 ≤ (i 0).val ∧ (i 0).val < (i 0).val / 10000 * 10000 + 10000
    omega
  | ⟨1, _⟩ =>
    show win0_7.index ⟨(i 0).val / 10000, hlt⟩ (1 : Fin 2) * 16 ≤ (i 1).val ∧ (i 1).val < win0_7.index ⟨(i 0).val / 10000, hlt⟩ (1 : Fin 2) * 16 + 16
    rw [e71]; omega

/-- THE ARRAY after the run is the layer of the arrays the call read. -/
theorem final (c : Dev nD) : (dats m 0 c).arrAt 7 cfg0.N = layerV m c :=
  (dats m 0 c).arrAt_eq_of_cover 7 (layerV m c) (fun t _ => flushed_eq m c t) (cover)

/-- The run, read: the result array at the layer, the arguments unchanged. -/
theorem run : θ_run defs (onTc (τ := τ) (main (F := Ideal))) ⟨m, fun _ => 0, ρ⟩ fun r => ∀ c : Dev nD,
      r.2.mem ((c : Thread nD τ).loc main_v30) = layerV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Array

end
-- ==== Proof.RefRead.lean ====
/-
  The reference, read at one entry of its result.

  The reference computes the same layer with the hidden pre-activation grouped its own way: the node's features are
  contracted against the transposed root weights and against the transposed antisymmetric weights separately, and the
  two biases are added one after the other.  Read entry by entry its result is the logistic function, spelled
  `1 / (1 + exp (−·))` with the word of 1.0, of the readout of `x + ε · tanh h`; and its `h` meets the specification's
  by the regrouping law, which is where the reals among the inputs are used.
-/
import proofs.«152117_j15444702396724_2_alg».proof.Proof.Gen.ReferenceIdeal.Read
import proofs.«152117_j15444702396724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layer

open Cert.ReferenceIdeal Cert.ReferenceIdeal.Gen Cert.ReferenceIdeal.Read Idealize.ShloMosaic Idealize.ShloMosaic.ValueIdx Cert.DenseSpec
open scoped BigOperators

variable (x0 : IVec S2x1600000 32) (x1 : FVec Ideal S100000x64 .f32) (x2 : FVec Ideal S64x64 .f32) (x3 : FVec Ideal S64 .f32)
  (x4 x5 : FVec Ideal S64x64 .f32) (x6 : FVec Ideal S64 .f32) (x7 : FVec Ideal S16x64 .f32) (x8 : FVec Ideal S16 .f32)

/-- The word of 1.0 is 1. -/
theorem ofBits_one : Ideal.ofBits .f32 0x3F800000#32 = 1 := by
  simp [Ideal.ofBits, Ideal.ieee, -EReal.coe_mul]; norm_num

/-- The reference's hidden pre-activation at node `r`, feature `k`, in the reference's grouping. -/
theorem v38_at (r : Fin 100000) (k : Fin 64) :
    val_main_v38 (F := Ideal) x0 x1 x2 x3 x4 x5 x6 (ix2 r k)
      = ((∑ l : Fin 64, x1 (ix2 r l) * val_main_v32 (F := Ideal) x5 (ix2 k l))
          + (((∑ l : Fin 64, val_main_v13 (F := Ideal) x0 x1 (ix2 r l) * x2 (ix2 k l)) + x3 (ix1 k))
             + ∑ l : Fin 64, x1 (ix2 r l) * x4 (ix2 k l))) + x6 (ix1 k) := by
  rw [val_main_v38_apply, val_main_v35_apply, val_main_v34_apply, val_main_v21_apply, val_main_v18_apply, val_main_v15_apply,
    val_main_v20_apply, val_main_v17_apply, val_main_v16_apply, val_main_v37_apply, val_main_v36_apply]
  simp only [val_main_v33_apply, val_main_v14_apply, val_main_v19_apply]
  have e34l : ∀ l : Fin 64, lidx_main_v34 (ix2 r k) l = ix2 r l := fun l => funext fun a => by match a with | ⟨0, _⟩ => rfl | ⟨1, _⟩ => rfl
  have e34r : ∀ l : Fin 64, idx_main_v33 (ridx_main_v34 (ix2 r k) l) = ix2 k l := fun l => funext fun a => by match a with | ⟨0, _⟩ => rfl | ⟨1, _⟩ => rfl
  have e15l : ∀ l : Fin 64, lidx_main_v15 (ix2 r k) l = ix2 r l := fun l => funext fun a => by match a with | ⟨0, _⟩ => rfl | ⟨1, _⟩ => rfl
  have e15r : ∀ l : Fin 64, idx_main_v14 (ridx_main_v15 (ix2 r k) l) = ix2 k l := fun l => funext fun a => by match a with | ⟨0, _⟩ => rfl | ⟨1, _⟩ => rfl
  have e20l : ∀ l : Fin 64, lidx_main_v20 (ix2 r k) l = ix2 r l := fun l => funext fun a => by match a with | ⟨0, _⟩ => rfl | ⟨1, _⟩ => rfl
  have e20r : ∀ l : Fin 64, idx_main_v19 (ridx_main_v20 (ix2 r k) l) = ix2 k l := fun l => funext fun a => by match a with | ⟨0, _⟩ => rfl | ⟨1, _⟩ => rfl
  have e17 : idx_main_v16 (idx_main_v17 (ix2 r k)) = ix1 k := funext fun a => by match a with | ⟨0, _⟩ => rfl
  have e37 : idx_main_v36 (idx_main_v37 (ix2 r k)) = ix1 k := funext fun a => by match a with | ⟨0, _⟩ => rfl
  simp only [e34l, e34r, e15l, e15r, e20l, e20r, e17, e37]
  rfl

/-- The reference's result at node `r`, class `c`. -/
theorem v53_at (r : Fin 100000) (c : Fin 16) :
    val_main_v53 (F := Ideal) x0 x1 x2 x3 x4 x5 x6 x7 x8 (ix2 r c)
      = Ideal.logistic ((∑ k : Fin 64, (x1 (ix2 r k) + Ideal.ofBits .f32 0x3DCCCCCD#32
            * Ideal.tanh (val_main_v38 (F := Ideal) x0 x1 x2 x3 x4 x5 x6 (ix2 r k))) * x7 (ix2 c k)) + x8 (ix1 c)) := by
  rw [val_main_v53_apply, val_main_v52_apply, val_main_cst_5_apply, val_main_v51_apply, val_main_v50_apply, val_main_cst_4_apply,
    val_main_v49_apply, val_main_v48_apply, val_main_v47_apply, val_main_v44_apply, val_main_v46_apply, val_main_v45_apply]
  simp only [val_main_v43_apply, val_main_v42_apply, val_main_v41_apply, val_main_v40_apply, val_main_cst_3_apply, val_main_v39_apply]
  have e44l : ∀ k : Fin 64, lidx_main_v44 (ix2 r c) k = ix2 r k := fun k => funext fun a => by match a with | ⟨0, _⟩ => rfl | ⟨1, _⟩ => rfl
  have e44r : ∀ k : Fin 64, idx_main_v43 (ridx_main_v44 (ix2 r c) k) = ix2 c k := fun k => funext fun a => by match a with | ⟨0, _⟩ => rfl | ⟨1, _⟩ => rfl
  have e46 : idx_main_v45 (idx_main_v46 (ix2 r c)) = ix1 c := funext fun a => by match a with | ⟨0, _⟩ => rfl
  simp only [e44l, e44r, e46, Ideal.ofBits_def, ofBits_one]
  rfl

/-- THE REFERENCE IS THE LAYER of: the neighbour sums it scatters, the node features, its first weight matrix
    transposed, the transposed SUM of the root weights and the antisymmetric weights, the SUM of the two biases, the
    readout matrix transposed, the readout bias — provided the node features and the root weights are real. -/
theorem ref_layer (hx1 : ∀ i, ∃ r : ℝ, x1 i = r) (hx4 : ∀ i, ∃ r : ℝ, x4 i = r) :
    val_main_v53 (F := Ideal) x0 x1 x2 x3 x4 x5 x6 x7 x8
      = layer (val_main_v13 (F := Ideal) x0 x1) x1 (val_main_v14 (F := Ideal) x2)
          (transpose S64x64 [1, 0] (addf x4 (val_main_v32 (F := Ideal) x5)) transposes_S64x64_S64x64_1_0)
          (addf x3 x6) (val_main_v43 (F := Ideal) x7) x8 := by
  funext i
  obtain ⟨r, c, rfl⟩ : ∃ (r : Fin 100000) (c : Fin 16), i = ix2 r c := ⟨i 0, i 1, eq_ix2 i⟩
  rw [v53_at]
  unfold layer rowOut
  refine congrArg Ideal.logistic (congrArg (· + x8 (ix1 c)) (Finset.sum_congr rfl fun k _ => ?_))
  have e43 : val_main_v43 (F := Ideal) x7 (ix2 k c) = x7 (ix2 c k) := by
    rw [val_main_v43_apply]
    exact congrArg x7 (funext fun a => by match a with | ⟨0, _⟩ => rfl | ⟨1, _⟩ => rfl)
  have eh : preAct (fun l => val_main_v13 (F := Ideal) x0 x1 (ix2 r l)) (fun l => x1 (ix2 r l)) (val_main_v14 (F := Ideal) x2)
      (transpose S64x64 [1, 0] (addf x4 (val_main_v32 (F := Ideal) x5)) transposes_S64x64_S64x64_1_0) (addf x3 x6) k
      = val_main_v38 (F := Ideal) x0 x1 x2 x3 x4 x5 x6 (ix2 r k) := by
    rw [v38_at]
    unfold preAct
    have ew : ∀ l : Fin 64, val_main_v14 (F := Ideal) x2 (ix2 l k) = x2 (ix2 k l) := fun l => by
      rw [val_main_v14_apply]
      exact congrArg x2 (funext fun a => by match a with | ⟨0, _⟩ => rfl | ⟨1, _⟩ => rfl)
    have ec : ∀ l : Fin 64, transpose S64x64 [1, 0] (addf x4 (val_main_v32 (F := Ideal) x5)) transposes_S64x64_S64x64_1_0 (ix2 l k)
        = x4 (ix2 k l) + val_main_v32 (F := Ideal) x5 (ix2 k l) := fun l => by
      rw [transpose_ix2_apply]; rfl
    simp only [ew, ec]
    exact preAct_regroup (fun l => val_main_v13 (F := Ideal) x0 x1 (ix2 r l)) (fun l => x1 (ix2 r l)) (fun l => x2 (ix2 k l))
      (fun l => x4 (ix2 k l)) (fun l => val_main_v32 (F := Ideal) x5 (ix2 k l)) (x3 (ix1 k)) (x6 (ix1 k))
      (fun l => hx1 _) (fun l => hx4 _)
  show _ = (x1 (ix2 r k) + Ideal.ofBits .f32 0x3DCCCCCD#32 * Ideal.tanh (preAct (fun l => val_main_v13 (F := Ideal) x0 x1 (ix2 r l))
      (fun l => x1 (ix2 r l)) (val_main_v14 (F := Ideal) x2)
      (transpose S64x64 [1, 0] (addf x4 (val_main_v32 (F := Ideal) x5)) transposes_S64x64_S64x64_1_0) (addf x3 x6) k))
    * val_main_v43 (F := Ideal) x7 (ix2 k c)
  rw [e43, eh]

end Cert.ReferenceIdeal.Layer

end
-- ==== Proof.Bridge.lean ====
/-
  The arrays the call reads, as functions of the program's arguments.

  Before the call the program computes, from its arguments: the neighbour sums (a scatter-add of gathered rows of the
  node features along the edges), the first weight matrix transposed, the transposed sum of the root weights and the
  antisymmetric weights `W − Wᵀ − γ·I`, the sum of the two biases, and the readout matrix transposed; the node features
  and the readout bias it passes through.  Each is spelled here with the reference's own stages, which are the same
  operations of the same arguments, so that the two programs' layers are literally one expression.
-/
import proofs.«152117_j15444702396724_2_alg».proof.Proof.KernelArray
import proofs.«152117_j15444702396724_2_alg».proof.Proof.Gen.ReferenceIdeal.Read
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo
open Cert.DenseSpec

variable (m : (ℓ : Loc nD τ sig) → Buf (Elt Ideal) ℓ)

set_option maxRecDepth 8192 in
set_option maxHeartbeats 8000000 in
/-- The neighbour sums: the reference's scatter-add of its gather, of the same edge list and features. -/
theorem neighbour_sums (c : Dev nD) : (V m c (Pipeline.arrRef spec0 0) : S100000x64.Idx → EReal)
    = Cert.ReferenceIdeal.Read.val_main_v13 (F := Ideal) (m ((c : Thread nD τ).loc main_arg0)) (m ((c : Thread nD τ).loc main_arg1)) := by
  show (V m c main_v13 : _) = _
  dsimp only [V, hostOps0]
  after_results_simp <;> rfl

/-- The node features pass through. -/
theorem features (c : Dev nD) : (V m c (Pipeline.arrRef spec0 1) : S100000x64.Idx → EReal) = (m ((c : Thread nD τ).loc main_arg1)) :=
  V_main_arg1 m c

set_option maxRecDepth 8192 in
set_option maxHeartbeats 8000000 in
/-- The first weight matrix, transposed. -/
theorem wrel_t (c : Dev nD) : (V m c (Pipeline.arrRef spec0 2) : S64x64.Idx → EReal)
    = Cert.ReferenceIdeal.Read.val_main_v14 (F := Ideal) (m ((c : Thread nD τ).loc main_arg2)) := by
  show (V m c main_v27 : _) = _
  dsimp only [V, hostOps0]
  after_results_simp <;> rfl

set_option maxRecDepth 8192 in
set_option maxHeartbeats 8000000 in
/-- The root weights plus the antisymmetric weights, transposed. -/
theorem wcomb_t (c : Dev nD) : (V m c (Pipeline.arrRef spec0 3) : S64x64.Idx → EReal)
    = (transpose (α := EReal) Cert.ReferenceIdeal.S64x64 [1, 0] (addf (F := Ideal) (s := Cert.ReferenceIdeal.S64x64) (φ := .f32) (m ((c : Thread nD τ).loc main_arg4)) (Cert.ReferenceIdeal.Read.val_main_v32 (F := Ideal) (m ((c : Thread nD τ).loc main_arg5))))
        Cert.ReferenceIdeal.Gen.transposes_S64x64_S64x64_1_0) := by
  show (V m c main_v28 : _) = _
  dsimp only [V, hostOps0]
  after_results_simp <;> rfl

set_option maxRecDepth 8192 in
set_option maxHeartbeats 8000000 in
/-- The two biases, added. -/
theorem bias_sum (c : Dev nD) : (V m c (Pipeline.arrRef spec0 4) : S64.Idx → EReal) = (addf (F := Ideal) (s := Cert.ReferenceIdeal.S64) (φ := .f32) (m ((c : Thread nD τ).loc main_arg3)) (m ((c : Thread nD τ).loc main_arg6))) := by
  show (V m c main_v26 : _) = _
  dsimp only [V, hostOps0]
  after_results_simp <;> rfl

set_option maxRecDepth 8192 in
set_option maxHeartbeats 8000000 in
/-- The readout matrix, transposed. -/
theorem wlin_t (c : Dev nD) : (V m c (Pipeline.arrRef spec0 5) : S64x16.Idx → EReal)
    = Cert.ReferenceIdeal.Read.val_main_v43 (F := Ideal) (m ((c : Thread nD τ).loc main_arg7)) := by
  show (V m c main_v29 : _) = _
  dsimp only [V, hostOps0]
  after_results_simp <;> rfl

/-- The readout bias passes through. -/
theorem readout_bias (c : Dev nD) : (V m c (Pipeline.arrRef spec0 6) : S16.Idx → EReal) = (m ((c : Thread nD τ).loc main_arg8)) :=
  V_main_arg8 m c

/-- The layer the call computes, of the program's arguments. -/
theorem layerV_eq (c : Dev nD) : Array.layerV m c
    = layer (Cert.ReferenceIdeal.Read.val_main_v13 (F := Ideal) (m ((c : Thread nD τ).loc main_arg0)) (m ((c : Thread nD τ).loc main_arg1))) (m ((c : Thread nD τ).loc main_arg1)) (Cert.ReferenceIdeal.Read.val_main_v14 (F := Ideal) (m ((c : Thread nD τ).loc main_arg2)))
        (transpose (α := EReal) Cert.ReferenceIdeal.S64x64 [1, 0] (addf (F := Ideal) (s := Cert.ReferenceIdeal.S64x64) (φ := .f32) (m ((c : Thread nD τ).loc main_arg4)) (Cert.ReferenceIdeal.Read.val_main_v32 (F := Ideal) (m ((c : Thread nD τ).loc main_arg5))))
        Cert.ReferenceIdeal.Gen.transposes_S64x64_S64x64_1_0)
        (addf (F := Ideal) (s := Cert.ReferenceIdeal.S64) (φ := .f32) (m ((c : Thread nD τ).loc main_arg3)) (m ((c : Thread nD τ).loc main_arg6))) (Cert.ReferenceIdeal.Read.val_main_v43 (F := Ideal) (m ((c : Thread nD τ).loc main_arg7))) (m ((c : Thread nD τ).loc main_arg8)) := by
  unfold Array.layerV
  rw [neighbour_sums m c, features m c, wrel_t m c, wcomb_t m c, bias_sum m c, wlin_t m c, readout_bias m c]

end Cert.KernelIdeal.Host

end
-- ==== Proof.lean ====
/-
  A graph layer, tiled, against the same layer written plainly.

  Both programs take an edge list, node features `x` and the weights of one antisymmetric graph-convolution step with
  a sigmoid readout.  Both first form the neighbour sums `a = Σ_{edges into a node} x[source]` and the antisymmetric
  weights `Wa = W − Wᵀ − γ·I` by the same host operations.  The tiled program then adds the root weights and `Wa`, adds
  the two biases, and sweeps the nodes in ten tiles of 10000 rows, computing for each node

      σ( (x + ε · tanh( a·Wrelᵀ + x·(Wroot + Wa)ᵀ + (b₁ + b₂) )) · Wlinᵀ + b ),

  while the plain program computes `tanh( x·Waᵀ + ((a·Wrelᵀ + b₁) + x·Wrootᵀ) + b₂ )` inside, and spells σ as
  `1 / (1 + exp(−·))`.  Over the extended reals the two agree entry by entry: the matrix products are the same sums,
  σ is that quotient by definition, sums may be regrouped freely, and the one product distributed over a sum,
  `x·(Wroot + Wa) = x·Wroot + x·Wa`, has a real multiplier and a real first summand because the precondition makes the
  node features and the root weights finite.

  The pieces: `Spec` (the layer for one node and the regrouping law), `Finite` (reals from the precondition),
  `KernelTile` (the tile the body stores, entry by entry), `KernelArray` (tiles to the whole result),
  `Bridge` (the arrays the call reads, as functions of the arguments), `RefRead` (the plain program, entry by entry).
  The idealization rewrote nothing, so the sanctioned-idealization claim is trivially true; each program's termination,
  safety and unchanged arguments are the generated frames, the plain program's its generated run.
-/
import proofs.«152117_j15444702396724_2_alg».proof.Defs
import proofs.«152117_j15444702396724_2_alg».proof.Proof.Gen.Kernel
import proofs.«152117_j15444702396724_2_alg».proof.Proof.Gen.Kernel.Skeleton
import proofs.«152117_j15444702396724_2_alg».proof.Proof.Gen.Kernel.Launch
import proofs.«152117_j15444702396724_2_alg».proof.Proof.Gen.Kernel.Points
import proofs.«152117_j15444702396724_2_alg».proof.Proof.Gen.Kernel.Frame
import proofs.«152117_j15444702396724_2_alg».proof.Proof.Gen.KernelIdeal
import proofs.«152117_j15444702396724_2_alg».proof.Proof.Gen.KernelIdeal.Skeleton
import proofs.«152117_j15444702396724_2_alg».proof.Proof.Gen.KernelIdeal.Launch
import proofs.«152117_j15444702396724_2_alg».proof.Proof.Gen.KernelIdeal.Points
import proofs.«152117_j15444702396724_2_alg».proof.Proof.Gen.KernelIdeal.Frame
import proofs.«152117_j15444702396724_2_alg».proof.Proof.Gen.ReferenceIdeal
import proofs.«152117_j15444702396724_2_alg».proof.Proof.Gen.KernelIdeal.Value
import proofs.«152117_j15444702396724_2_alg».proof.Proof.Gen.ReferenceIdeal.Run
import proofs.«152117_j15444702396724_2_alg».proof.Proof.Gen.ReferenceIdeal.Read
import proofs.«152117_j15444702396724_2_alg».proof.Proof.Gen.Pre_finite_inputs
import proofs.«152117_j15444702396724_2_alg».proof.Proof.Spec
import proofs.«152117_j15444702396724_2_alg».proof.Proof.Finite
import proofs.«152117_j15444702396724_2_alg».proof.Proof.KernelTile
import proofs.«152117_j15444702396724_2_alg».proof.Proof.KernelArray
import proofs.«152117_j15444702396724_2_alg».proof.Proof.RefRead
import proofs.«152117_j15444702396724_2_alg».proof.Proof.Bridge
import Idealize.ShloMosaic.Adequacy
import Idealize.ShloMosaic.Init

noncomputable section

namespace Cert.Proof

open Idealize.ShloMosaic Idealize.SL.Sem

/-- The tiled program as printed terminates, faults nowhere and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the plain program: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals. -/
theorem preserves : Cert.preserves_Kernel_KernelIdeal := trivial

/-- From arguments that agree, the tiled program's result array ends at the layer of the arrays it reads (the tiles
    assembled), and the plain program's at its own composed term, which is the same layer of the same arrays once the
    node features and the root weights are known to be real. -/
theorem algebraic : Cert.algebraic_KernelIdeal_ReferenceIdeal := by
  intro m ρ m' ρ' hpre hagree
  refine ⟨fun c => Cert.KernelIdeal.Array.layerV m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨hx, hw⟩ := Cert.Pre_finite_inputs.Reals.real_x_wroot _ _ _ _ _ _ _ _ _ (hpre c)
  rw [a0, a1, a2, a3, a4, a5, a6, a7, a8, Cert.ReferenceIdeal.Read.val_main_v53_eq,
    Cert.ReferenceIdeal.Layer.ref_layer _ _ _ _ _ _ _ _ _ hx hw]
  exact (Cert.KernelIdeal.Host.layerV_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
